-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4x512x512 : Shape := ⟨4, ![64, 4, 512, 512]⟩
abbrev S_ : Shape := ⟨0, ![]⟩

class Facts : Prop where
  bcast_S_S64x4x512x512 : S_.BroadcastsInDim S64x4x512x512 (![] : Fin 0 → Fin S64x4x512x512.rank)
  reducesTo_S64x4x512x512_S_d0_1_2_3 : S64x4x512x512.ReducesTo [0, 1, 2, 3] S_
  h_S_ : 0 < S_.numel

variable [Facts]

def fn {F : FTy → Type} [FloatOps F] (main_arg0 : FVec F S64x4x512x512 .f32) (main_arg1 : FVec F S64x4x512x512 .f32) : IVec S_ 1 :=
  let main_v0 : FVec F S64x4x512x512 .f32 := Host.absf main_arg0
  let main_cst : FVec F S_ .f32 := constant S_ .f32 0x7F800000#32
  let main_v1 : FVec F S64x4x512x512 .f32 := broadcastInDim S64x4x512x512 ![] bcast_S_S64x4x512x512 main_cst
  let main_v2 : IVec S64x4x512x512 1 := cmpf .olt main_v0 main_v1
  let main_c : IVec S_ 1 := constantI S_ 1 1#1
  let main_v3 : IVec S_ 1 := (fun x v => Host.reduce IntOp.andi x v reducesTo_S64x4x512x512_S_d0_1_2_3 h_S_) main_v2 main_c
  let main_v4 : FVec F S64x4x512x512 .f32 := Host.absf main_arg1
  let main_cst_0 : FVec F S_ .f32 := constant S_ .f32 0x7F800000#32
  let main_v5 : FVec F S64x4x512x512 .f32 := broadcastInDim S64x4x512x512 ![] bcast_S_S64x4x512x512 main_cst_0
  let main_v6 : IVec S64x4x512x512 1 := cmpf .olt main_v4 main_v5
  let main_c_1 : IVec S_ 1 := constantI S_ 1 1#1
  let main_v7 : IVec S_ 1 := (fun x v => Host.reduce IntOp.andi x v reducesTo_S64x4x512x512_S_d0_1_2_3 h_S_) main_v6 main_c_1
  let main_v8 : IVec S_ 1 := andi main_v3 main_v7
  main_v8
-- ==== Kernel.lean ====
abbrev S64x4x512x512 : Shape := ⟨4, ![64, 4, 512, 512]⟩
abbrev S64x512x512 : Shape := ⟨3, ![64, 512, 512]⟩
abbrev S2x4x512x512 : Shape := ⟨4, ![2, 4, 512, 512]⟩
abbrev S2x512x512 : Shape := ⟨3, ![2, 512, 512]⟩
abbrev S64x262144 : Shape := ⟨2, ![64, 262144]⟩
abbrev S_ : Shape := ⟨0, ![]⟩
abbrev S64 : Shape := ⟨1, ![64]⟩
abbrev S64x1 : Shape := ⟨2, ![64, 1]⟩
abbrev S16777216 : Shape := ⟨1, ![16777216]⟩
abbrev S3200 : Shape := ⟨1, ![3200]⟩
abbrev S16777216x1 : Shape := ⟨2, ![16777216, 1]⟩
abbrev S64x50 : Shape := ⟨2, ![64, 50]⟩

abbrev nBuf : Space → Nat
  | .hbm => 113
  | .vmem => 8
  | .smem => 0
  | _ => 0

abbrev bufTy : (tb : Table) → Fin (tcTables nBuf tb) → BufTy
  | .hbm, ⟨0, _⟩ => ⟨S64x4x512x512, .f32⟩
  | .hbm, ⟨1, _⟩ => ⟨S64x4x512x512, .f32⟩
  | .hbm, ⟨2, _⟩ => ⟨S64x512x512, .f32⟩
  | .hbm, ⟨3, _⟩ => ⟨S64x512x512, .f32⟩
  | .hbm, ⟨4, _⟩ => ⟨S64x262144, .f32⟩
  | .hbm, ⟨5, _⟩ => ⟨S64x262144, .f32⟩
  | .hbm, ⟨6, _⟩ => ⟨S_, .f32⟩
  | .hbm, ⟨7, _⟩ => ⟨S64, .f32⟩
  | .hbm, ⟨8, _⟩ => ⟨S64x1, .f32⟩
  | .hbm, ⟨9, _⟩ => ⟨S_, .f32⟩
  | .hbm, ⟨10, _⟩ => ⟨S64, .f32⟩
  | .hbm, ⟨11, _⟩ => ⟨S64x1, .f32⟩
  | .hbm, ⟨12, _⟩ => ⟨S64x1, .f32⟩
  | .hbm, ⟨13, _⟩ => ⟨S_, .f32⟩
  | .hbm, ⟨14, _⟩ => ⟨S64x1, .f32⟩
  | .hbm, ⟨15, _⟩ => ⟨S64x1, .f32⟩
  | .hbm, ⟨16, _⟩ => ⟨S64, .i32⟩
  | .hbm, ⟨17, _⟩ => ⟨S64x1, .i32⟩
  | .hbm, ⟨18, _⟩ => ⟨S_, .i32⟩
  | .hbm, ⟨19, _⟩ => ⟨S64x1, .i32⟩
  | .hbm, ⟨20, _⟩ => ⟨S64x1, .i32⟩
  | .hbm, ⟨21, _⟩ => ⟨S_, .i1⟩
  | .hbm, ⟨22, _⟩ => ⟨S64x262144, .i1⟩
  | .hbm, ⟨23, _⟩ => ⟨S64x262144, .f32⟩
  | .hbm, ⟨24, _⟩ => ⟨S64x262144, .f32⟩
  | .hbm, ⟨25, _⟩ => ⟨S64x262144, .f32⟩
  | .hbm, ⟨26, _⟩ => ⟨S64x262144, .f32⟩
  | .hbm, ⟨27, _⟩ => ⟨S64x262144, .f32⟩
  | .hbm, ⟨28, _⟩ => ⟨S64x262144, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S64x262144, .i32⟩
  | .hbm, ⟨33, _⟩ => ⟨S64x262144, .i32⟩
  | .hbm, ⟨34, _⟩ => ⟨S_, .i32⟩
  | .hbm, ⟨35, _⟩ => ⟨S64x262144, .i32⟩
  | .hbm, ⟨36, _⟩ => ⟨S64x262144, .i32⟩
  | .hbm, ⟨37, _⟩ => ⟨S64x262144, .i32⟩
  | .hbm, ⟨38, _⟩ => ⟨S64x262144, .i32⟩
  | .hbm, ⟨39, _⟩ => ⟨S16777216, .i32⟩
  | .hbm, ⟨40, _⟩ => ⟨S64x262144, .f32⟩
  | .hbm, ⟨41, _⟩ => ⟨S16777216, .f32⟩
  | .hbm, ⟨42, _⟩ => ⟨S_, .f32⟩
  | .hbm, ⟨43, _⟩ => ⟨S3200, .f32⟩
  | .hbm, ⟨44, _⟩ => ⟨S16777216x1, .i32⟩
  | .hbm, ⟨45, _⟩ => ⟨S3200, .f32⟩
  | .hbm, ⟨46, _⟩ => ⟨S64x50, .f32⟩
  | .hbm, ⟨47, _⟩ => ⟨S64x262144, .f32⟩
  | .hbm, ⟨48, _⟩ => ⟨S64x262144, .i1⟩
  | .hbm, ⟨49, _⟩ => ⟨S64x262144, .f32⟩
  | .hbm, ⟨50, _⟩ => ⟨S64x262144, .i1⟩
  | .hbm, ⟨51, _⟩ => ⟨S64x262144, .i1⟩
  | .hbm, ⟨52, _⟩ => ⟨S64x262144, .f32⟩
  | .hbm, ⟨53, _⟩ => ⟨S64x262144, .f32⟩
  | .hbm, ⟨54, _⟩ => ⟨S64x262144, .f32⟩
  | .hbm, ⟨55, _⟩ => ⟨S64x262144, .f32⟩
  | .hbm, ⟨56, _⟩ => ⟨S64x262144, .f32⟩
  | .hbm, ⟨57, _⟩ => ⟨S64x262144, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S64x262144, .i32⟩
  | .hbm, ⟨62, _⟩ => ⟨S64x262144, .i32⟩
  | .hbm, ⟨63, _⟩ => ⟨S_, .i32⟩
  | .hbm, ⟨64, _⟩ => ⟨S64x262144, .i32⟩
  | .hbm, ⟨65, _⟩ => ⟨S64x262144, .i32⟩
  | .hbm, ⟨66, _⟩ => ⟨S64x262144, .i32⟩
  | .hbm, ⟨67, _⟩ => ⟨S64x262144, .i32⟩
  | .hbm, ⟨68, _⟩ => ⟨S16777216, .i32⟩
  | .hbm, ⟨69, _⟩ => ⟨S64x262144, .f32⟩
  | .hbm, ⟨70, _⟩ => ⟨S16777216, .f32⟩
  | .hbm, ⟨71, _⟩ => ⟨S_, .f32⟩
  | .hbm, ⟨72, _⟩ => ⟨S3200, .f32⟩
  | .hbm, ⟨73, _⟩ => ⟨S16777216x1, .i32⟩
  | .hbm, ⟨74, _⟩ => ⟨S3200, .f32⟩
  | .hbm, ⟨75, _⟩ => ⟨S64x50, .f32⟩
  | .hbm, ⟨76, _⟩ => ⟨S_, .f32⟩
  | .hbm, ⟨77, _⟩ => ⟨S64, .f32⟩
  | .hbm, ⟨78, _⟩ => ⟨S64x1, .f32⟩
  | .hbm, ⟨79, _⟩ => ⟨S64x1, .f32⟩
  | .hbm, ⟨80, _⟩ => ⟨S64x50, .f32⟩
  | .hbm, ⟨81, _⟩ => ⟨S64x50, .f32⟩
  | .hbm, ⟨82, _⟩ => ⟨S_, .f32⟩
  | .hbm, ⟨83, _⟩ => ⟨S64, .f32⟩
  | .hbm, ⟨84, _⟩ => ⟨S64x1, .f32⟩
  | .hbm, ⟨85, _⟩ => ⟨S64x1, .f32⟩
  | .hbm, ⟨86, _⟩ => ⟨S64x50, .f32⟩
  | .hbm, ⟨87, _⟩ => ⟨S64x50, .f32⟩
  | .hbm, ⟨88, _⟩ => ⟨S_, .f32⟩
  | .hbm, ⟨89, _⟩ => ⟨S64x50, .f32⟩
  | .hbm, ⟨90, _⟩ => ⟨S64x50, .f32⟩
  | .hbm, ⟨91, _⟩ => ⟨S_, .f32⟩
  | .hbm, ⟨92, _⟩ => ⟨S64x50, .f32⟩
  | .hbm, ⟨93, _⟩ => ⟨S64x50, .f32⟩
  | .hbm, ⟨94, _⟩ => ⟨S_, .f32⟩
  | .hbm, ⟨95, _⟩ => ⟨S64, .f32⟩
  | .hbm, ⟨96, _⟩ => ⟨S64x1, .f32⟩
  | .hbm, ⟨97, _⟩ => ⟨S64x50, .f32⟩
  | .hbm, ⟨98, _⟩ => ⟨S64x50, .f32⟩
  | .hbm, ⟨99, _⟩ => ⟨S_, .f32⟩
  | .hbm, ⟨100, _⟩ => ⟨S64, .f32⟩
  | .hbm, ⟨101, _⟩ => ⟨S64x1, .f32⟩
  | .hbm, ⟨102, _⟩ => ⟨S64x50, .f32⟩
  | .hbm, ⟨103, _⟩ => ⟨S64x50, .f32⟩
  | .hbm, ⟨104, _⟩ => ⟨S64x50, .f32⟩
  | .hbm, ⟨105, _⟩ => ⟨S64x50, .f32⟩
  | .hbm, ⟨106, _⟩ => ⟨S64x50, .f32⟩
  | .hbm, ⟨107, _⟩ => ⟨S_, .f32⟩
  | .hbm, ⟨108, _⟩ => ⟨S64, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .local _ .vmem, ⟨0, _⟩ => ⟨S2x4x512x512, .f32⟩
  | .local _ .vmem, ⟨1, _⟩ => ⟨S2x4x512x512, .f32⟩
  | .local _ .vmem, ⟨2, _⟩ => ⟨S2x4x512x512, .f32⟩
  | .local _ .vmem, ⟨3, _⟩ => ⟨S2x4x512x512, .f32⟩
  | .local _ .vmem, ⟨4, _⟩ => ⟨S2x512x512, .f32⟩
  | .local _ .vmem, ⟨5, _⟩ => ⟨S2x512x512, .f32⟩
  | .local _ .vmem, ⟨6, _⟩ => ⟨S2x512x512, .f32⟩
  | .local _ .vmem, ⟨7, _⟩ => ⟨S2x512x512, .f32⟩
  | _, _ => ⟨S64x4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_c_4 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_6 : Ref sig .tc := ⟨.hbm, 58, rfl⟩
abbrev main_c_7 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_11 : Ref sig .tc := ⟨.hbm, 88, rfl⟩
abbrev main_v62 : Ref sig .tc := ⟨.hbm, 89, rfl⟩
abbrev main_v63 : Ref sig .tc := ⟨.hbm, 90, rfl⟩
abbrev main_cst_12 : Ref sig .tc := ⟨.hbm, 91, rfl⟩
abbrev main_v64 : Ref sig .tc := ⟨.hbm, 92, rfl⟩
abbrev main_v65 : Ref sig .tc := ⟨.hbm, 93, rfl⟩
abbrev main_cst_13 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_15 : Ref sig .tc := ⟨.hbm, 107, rfl⟩
abbrev main_v77 : Ref sig .tc := ⟨.hbm, 108, rfl⟩
abbrev main_cst_16 : Ref sig .tc := ⟨.hbm, 109, rfl⟩
abbrev main_v78 : Ref sig .tc := ⟨.hbm, 110, rfl⟩
abbrev main_cst_17 : Ref sig .tc := ⟨.hbm, 111, rfl⟩
abbrev main_v79 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S2x4x512x512_S2x4x512x512_0_0_0_0 : ∀ a, (![0, 0, 0, 0] : Fin 4 → Nat) a + S2x4x512x512.size a ≤ S2x4x512x512.size a
  h_S2x4x512x512 : 0 < S2x4x512x512.numel
  reduces_S2x4x512x512_S2x512x512 : S2x4x512x512.Reduces [1] S2x512x512
  inb_S2x512x512_S2x512x512_0_0_0 : ∀ a, (![0, 0, 0] : Fin 3 → Nat) a + S2x512x512.size a ≤ S2x512x512.size a
  h_S2x512x512 : 0 < S2x512x512.numel
  shapeCasts_S64x512x512_S64x262144 : S64x512x512.ShapeCasts S64x262144
  reducesTo_S64x262144_S64_d1 : S64x262144.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S_S64x262144 : S_.BroadcastsInDim S64x262144 (![] : Fin 0 → Fin S64x262144.rank)
  bcast_S64x1_S64x262144_0_1 : S64x1.BroadcastsInDim S64x262144 (![0, 1] : Fin 2 → Fin S64x262144.rank)
  shapeCasts_S64x262144_S16777216 : S64x262144.ShapeCasts S16777216
  bcast_S_S3200 : S_.BroadcastsInDim S3200 (![] : Fin 0 → Fin S3200.rank)
  bcast_S16777216_S16777216x1_0 : S16777216.BroadcastsInDim S16777216x1 (![0] : Fin 1 → Fin S16777216x1.rank)
  shapeCasts_S3200_S64x50 : S3200.ShapeCasts S64x50
  reducesTo_S64x50_S64_d1 : S64x50.ReducesTo [1] S64
  bcast_S64x1_S64x50_0_1 : S64x1.BroadcastsInDim S64x50 (![0, 1] : Fin 2 → Fin S64x50.rank)
  bcast_S_S64x50 : S_.BroadcastsInDim S64x50 (![] : Fin 0 → Fin S64x50.rank)
  reducesTo_S64_S_d0 : S64.ReducesTo [0] S_
  scatter_S3200_S16777216x1_S16777216_n_0_0_1_wf : ScatterDims.WF S3200 S16777216x1 S16777216 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4x512x512.size a ≤ S64x4x512x512.size a
  hwx0_0 : ∀ i : grid0.Coords, EltTy.bits .f32 = 32 ∨ (Rect.block (s := S64x4x512x512) S2x4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x4x512x512.size a ≤ S64x4x512x512.size a
  hwx0_1 : ∀ i : grid0.Coords, EltTy.bits .f32 = 32 ∨ (Rect.block (s := S64x4x512x512) S2x4x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x512.size a ≤ S64x512x512.size a
  hwx0_2 : ∀ i : grid0.Coords, EltTy.bits .f32 = 32 ∨ (Rect.block (s := S64x512x512) S2x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x512x512.size a ≤ S64x512x512.size a
  hwx0_3 : ∀ i : grid0.Coords, EltTy.bits .f32 = 32 ∨ (Rect.block (s := S64x512x512) S2x512x512.size (cc0_transform_3 i) (hinb0_3 i)).WholeWords (EltTy.packing .f32)

variable [Facts₀]

def scatter_S3200_S16777216x1_S16777216_n_0_0_1 : ScatterDims S3200 S16777216x1 S16777216 where
  updateWindowDims := []
  insertedWindowDims := [0]
  scatterDimsToOperandDims := [0]
  indexVectorDim := 1
  wf := scatter_S3200_S16777216x1_S16777216_n_0_0_1_wf

abbrev win0_0 : Pipeline.Window sig grid0 :=
  Pipeline.Window.ofSpec (Memref.whole main_arg0) S2x4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x4x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2x512x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S2x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x4x512x512 : Shape := ⟨4, ![64, 4, 512, 512]⟩
abbrev S_ : Shape := ⟨0, ![]⟩
abbrev S64x512x512 : Shape := ⟨3, ![64, 512, 512]⟩
abbrev S64x262144 : Shape := ⟨2, ![64, 262144]⟩
abbrev S64 : Shape := ⟨1, ![64]⟩
abbrev S64x1 : Shape := ⟨2, ![64, 1]⟩
abbrev S16777216 : Shape := ⟨1, ![16777216]⟩
abbrev S3200 : Shape := ⟨1, ![3200]⟩
abbrev S16777216x1 : Shape := ⟨2, ![16777216, 1]⟩
abbrev S64x50 : Shape := ⟨2, ![64, 50]⟩

abbrev nBuf : Space → Nat
  | .hbm => 127
  | .vmem => 0
  | .smem => 0
  | _ => 0

abbrev bufTy : (tb : Table) → Fin (tcTables nBuf tb) → BufTy
  | .hbm, ⟨0, _⟩ => ⟨S64x4x512x512, .f32⟩
  | .hbm, ⟨1, _⟩ => ⟨S64x4x512x512, .f32⟩
  | .hbm, ⟨2, _⟩ => ⟨S64x4x512x512, .f32⟩
  | .hbm, ⟨3, _⟩ => ⟨S_, .f32⟩
  | .hbm, ⟨4, _⟩ => ⟨S64x512x512, .f32⟩
  | .hbm, ⟨5, _⟩ => ⟨S64x512x512, .f32⟩
  | .hbm, ⟨6, _⟩ => ⟨S_, .f32⟩
  | .hbm, ⟨7, _⟩ => ⟨S_, .f32⟩
  | .hbm, ⟨8, _⟩ => ⟨S64x512x512, .f32⟩
  | .hbm, ⟨9, _⟩ => ⟨S64x512x512, .f32⟩
  | .hbm, ⟨10, _⟩ => ⟨S64x262144, .f32⟩
  | .hbm, ⟨11, _⟩ => ⟨S64x4x512x512, .f32⟩
  | .hbm, ⟨12, _⟩ => ⟨S_, .f32⟩
  | .hbm, ⟨13, _⟩ => ⟨S64x512x512, .f32⟩
  | .hbm, ⟨14, _⟩ => ⟨S64x512x512, .f32⟩
  | .hbm, ⟨15, _⟩ => ⟨S_, .f32⟩
  | .hbm, ⟨16, _⟩ => ⟨S_, .f32⟩
  | .hbm, ⟨17, _⟩ => ⟨S64x512x512, .f32⟩
  | .hbm, ⟨18, _⟩ => ⟨S64x512x512, .f32⟩
  | .hbm, ⟨19, _⟩ => ⟨S64x262144, .f32⟩
  | .hbm, ⟨20, _⟩ => ⟨S_, .f32⟩
  | .hbm, ⟨21, _⟩ => ⟨S64, .f32⟩
  | .hbm, ⟨22, _⟩ => ⟨S64x1, .f32⟩
  | .hbm, ⟨23, _⟩ => ⟨S_, .f32⟩
  | .hbm, ⟨24, _⟩ => ⟨S64, .f32⟩
  | .hbm, ⟨25, _⟩ => ⟨S64x1, .f32⟩
  | .hbm, ⟨26, _⟩ => ⟨S64x1, .f32⟩
  | .hbm, ⟨27, _⟩ => ⟨S_, .f32⟩
  | .hbm, ⟨28, _⟩ => ⟨S64x1, .f32⟩
  | .hbm, ⟨29, _⟩ => ⟨S64x1, .f32⟩
  | .hbm, ⟨30, _⟩ => ⟨S64, .i32⟩
  | .hbm, ⟨31, _⟩ => ⟨S64x1, .i32⟩
  | .hbm, ⟨32, _⟩ => ⟨S_, .i32⟩
  | .hbm, ⟨33, _⟩ => ⟨S64x1, .i32⟩
  | .hbm, ⟨34, _⟩ => ⟨S64x1, .i32⟩
  | .hbm, ⟨35, _⟩ => ⟨S_, .i1⟩
  | .hbm, ⟨36, _⟩ => ⟨S64x262144, .i1⟩
  | .hbm, ⟨37, _⟩ => ⟨S64x262144, .f32⟩
  | .hbm, ⟨38, _⟩ => ⟨S64x262144, .f32⟩
  | .hbm, ⟨39, _⟩ => ⟨S64x262144, .f32⟩
  | .hbm, ⟨40, _⟩ => ⟨S64x262144, .f32⟩
  | .hbm, ⟨41, _⟩ => ⟨S64x262144, .f32⟩
  | .hbm, ⟨42, _⟩ => ⟨S64x262144, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S64x262144, .i32⟩
  | .hbm, ⟨47, _⟩ => ⟨S64x262144, .i32⟩
  | .hbm, ⟨48, _⟩ => ⟨S_, .i32⟩
  | .hbm, ⟨49, _⟩ => ⟨S64x262144, .i32⟩
  | .hbm, ⟨50, _⟩ => ⟨S64x262144, .i32⟩
  | .hbm, ⟨51, _⟩ => ⟨S64x262144, .i32⟩
  | .hbm, ⟨52, _⟩ => ⟨S64x262144, .i32⟩
  | .hbm, ⟨53, _⟩ => ⟨S16777216, .i32⟩
  | .hbm, ⟨54, _⟩ => ⟨S64x262144, .f32⟩
  | .hbm, ⟨55, _⟩ => ⟨S16777216, .f32⟩
  | .hbm, ⟨56, _⟩ => ⟨S_, .f32⟩
  | .hbm, ⟨57, _⟩ => ⟨S3200, .f32⟩
  | .hbm, ⟨58, _⟩ => ⟨S16777216x1, .i32⟩
  | .hbm, ⟨59, _⟩ => ⟨S3200, .f32⟩
  | .hbm, ⟨60, _⟩ => ⟨S64x50, .f32⟩
  | .hbm, ⟨61, _⟩ => ⟨S64x262144, .f32⟩
  | .hbm, ⟨62, _⟩ => ⟨S64x262144, .i1⟩
  | .hbm, ⟨63, _⟩ => ⟨S64x262144, .f32⟩
  | .hbm, ⟨64, _⟩ => ⟨S64x262144, .i1⟩
  | .hbm, ⟨65, _⟩ => ⟨S64x262144, .i1⟩
  | .hbm, ⟨66, _⟩ => ⟨S64x262144, .f32⟩
  | .hbm, ⟨67, _⟩ => ⟨S64x262144, .f32⟩
  | .hbm, ⟨68, _⟩ => ⟨S64x262144, .f32⟩
  | .hbm, ⟨69, _⟩ => ⟨S64x262144, .f32⟩
  | .hbm, ⟨70, _⟩ => ⟨S64x262144, .f32⟩
  | .hbm, ⟨71, _⟩ => ⟨S64x262144, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S64x262144, .i32⟩
  | .hbm, ⟨76, _⟩ => ⟨S64x262144, .i32⟩
  | .hbm, ⟨77, _⟩ => ⟨S_, .i32⟩
  | .hbm, ⟨78, _⟩ => ⟨S64x262144, .i32⟩
  | .hbm, ⟨79, _⟩ => ⟨S64x262144, .i32⟩
  | .hbm, ⟨80, _⟩ => ⟨S64x262144, .i32⟩
  | .hbm, ⟨81, _⟩ => ⟨S64x262144, .i32⟩
  | .hbm, ⟨82, _⟩ => ⟨S16777216, .i32⟩
  | .hbm, ⟨83, _⟩ => ⟨S64x262144, .f32⟩
  | .hbm, ⟨84, _⟩ => ⟨S16777216, .f32⟩
  | .hbm, ⟨85, _⟩ => ⟨S_, .f32⟩
  | .hbm, ⟨86, _⟩ => ⟨S3200, .f32⟩
  | .hbm, ⟨87, _⟩ => ⟨S16777216x1, .i32⟩
  | .hbm, ⟨88, _⟩ => ⟨S3200, .f32⟩
  | .hbm, ⟨89, _⟩ => ⟨S64x50, .f32⟩
  | .hbm, ⟨90, _⟩ => ⟨S_, .f32⟩
  | .hbm, ⟨91, _⟩ => ⟨S64, .f32⟩
  | .hbm, ⟨92, _⟩ => ⟨S64x1, .f32⟩
  | .hbm, ⟨93, _⟩ => ⟨S64x1, .f32⟩
  | .hbm, ⟨94, _⟩ => ⟨S64x50, .f32⟩
  | .hbm, ⟨95, _⟩ => ⟨S64x50, .f32⟩
  | .hbm, ⟨96, _⟩ => ⟨S_, .f32⟩
  | .hbm, ⟨97, _⟩ => ⟨S64, .f32⟩
  | .hbm, ⟨98, _⟩ => ⟨S64x1, .f32⟩
  | .hbm, ⟨99, _⟩ => ⟨S64x1, .f32⟩
  | .hbm, ⟨100, _⟩ => ⟨S64x50, .f32⟩
  | .hbm, ⟨101, _⟩ => ⟨S64x50, .f32⟩
  | .hbm, ⟨102, _⟩ => ⟨S_, .f32⟩
  | .hbm, ⟨103, _⟩ => ⟨S64x50, .f32⟩
  | .hbm, ⟨104, _⟩ => ⟨S64x50, .f32⟩
  | .hbm, ⟨105, _⟩ => ⟨S_, .f32⟩
  | .hbm, ⟨106, _⟩ => ⟨S64x50, .f32⟩
  | .hbm, ⟨107, _⟩ => ⟨S64x50, .f32⟩
  | .hbm, ⟨108, _⟩ => ⟨S_, .f32⟩
  | .hbm, ⟨109, _⟩ => ⟨S64, .f32⟩
  | .hbm, ⟨110, _⟩ => ⟨S64x1, .f32⟩
  | .hbm, ⟨111, _⟩ => ⟨S64x50, .f32⟩
  | .hbm, ⟨112, _⟩ => ⟨S64x50, .f32⟩
  | .hbm, ⟨113, _⟩ => ⟨S_, .f32⟩
  | .hbm, ⟨114, _⟩ => ⟨S64, .f32⟩
  | .hbm, ⟨115, _⟩ => ⟨S64x1, .f32⟩
  | .hbm, ⟨116, _⟩ => ⟨S64x50, .f32⟩
  | .hbm, ⟨117, _⟩ => ⟨S64x50, .f32⟩
  | .hbm, ⟨118, _⟩ => ⟨S64x50, .f32⟩
  | .hbm, ⟨119, _⟩ => ⟨S64x50, .f32⟩
  | .hbm, ⟨120, _⟩ => ⟨S64x50, .f32⟩
  | .hbm, ⟨121, _⟩ => ⟨S_, .f32⟩
  | .hbm, ⟨122, _⟩ => ⟨S64, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | _, _ => ⟨S64x4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_c_8 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_9 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_c_11 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_12 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_14 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_15 : Ref sig .tc := ⟨.hbm, 102, rfl⟩
abbrev main_v69 : Ref sig .tc := ⟨.hbm, 103, rfl⟩
abbrev main_v70 : Ref sig .tc := ⟨.hbm, 104, rfl⟩
abbrev main_cst_16 : Ref sig .tc := ⟨.hbm, 105, rfl⟩
abbrev main_v71 : Ref sig .tc := ⟨.hbm, 106, rfl⟩
abbrev main_v72 : Ref sig .tc := ⟨.hbm, 107, rfl⟩
abbrev main_cst_17 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_18 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_19 : Ref sig .tc := ⟨.hbm, 121, rfl⟩
abbrev main_v84 : Ref sig .tc := ⟨.hbm, 122, rfl⟩
abbrev main_cst_20 : Ref sig .tc := ⟨.hbm, 123, rfl⟩
abbrev main_v85 : Ref sig .tc := ⟨.hbm, 124, rfl⟩
abbrev main_cst_21 : Ref sig .tc := ⟨.hbm, 125, rfl⟩
abbrev main_v86 : Ref sig .tc := ⟨.hbm, 126, rfl⟩

abbrev nD : Nat := 1
abbrev τ : Topo := Topo.v7x

variable {F : FTy → Type} [FloatOps F]

class Facts₀ : Prop where
  reducesTo_S64x4x512x512_S64x512x512_d1 : S64x4x512x512.ReducesTo [1] S64x512x512
  h_S_ : 0 < S_.numel
  bcast_S_S64x512x512 : S_.BroadcastsInDim S64x512x512 (![] : Fin 0 → Fin S64x512x512.rank)
  shapeCasts_S64x512x512_S64x262144 : S64x512x512.ShapeCasts S64x262144
  reducesTo_S64x262144_S64_d1 : S64x262144.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S_S64x262144 : S_.BroadcastsInDim S64x262144 (![] : Fin 0 → Fin S64x262144.rank)
  bcast_S64x1_S64x262144_0_1 : S64x1.BroadcastsInDim S64x262144 (![0, 1] : Fin 2 → Fin S64x262144.rank)
  shapeCasts_S64x262144_S16777216 : S64x262144.ShapeCasts S16777216
  bcast_S_S3200 : S_.BroadcastsInDim S3200 (![] : Fin 0 → Fin S3200.rank)
  bcast_S16777216_S16777216x1_0 : S16777216.BroadcastsInDim S16777216x1 (![0] : Fin 1 → Fin S16777216x1.rank)
  shapeCasts_S3200_S64x50 : S3200.ShapeCasts S64x50
  reducesTo_S64x50_S64_d1 : S64x50.ReducesTo [1] S64
  bcast_S64x1_S64x50_0_1 : S64x1.BroadcastsInDim S64x50 (![0, 1] : Fin 2 → Fin S64x50.rank)
  bcast_S_S64x50 : S_.BroadcastsInDim S64x50 (![] : Fin 0 → Fin S64x50.rank)
  reducesTo_S64_S_d0 : S64.ReducesTo [0] S_
  scatter_S3200_S16777216x1_S16777216_n_0_0_1_wf : ScatterDims.WF S3200 S16777216x1 S16777216 [] [0] [0] 1

variable [Facts₀]

def scatter_S3200_S16777216x1_S16777216_n_0_0_1 : ScatterDims S3200 S16777216x1 S16777216 where
  updateWindowDims := []
  insertedWindowDims := [0]
  scatterDimsToOperandDims := [0]
  indexVectorDim := 1
  wf := scatter_S3200_S16777216x1_S16777216_n_0_0_1_wf

class Facts : Prop extends Facts₀ where

variable [Facts]
-- ==== Proof.KernelFrame.lean ====
/-
  The run of `Kernel`'s @main, at any float instance: the pipelined region that computes, block by block, the two
  clamped channel-magnitude maps, followed by the host operations that bin them into histograms and compare
  the histograms.

  The region's grid has 32 points; point `t` holds images `2t` and `2t+1` of each input (a block of shape
  2×4×512×512) and stores, for each, the 2×512×512 block of per-pixel values max(√(Σ_c x²), 1e-6). The body is
  two whole-block loads, two pointwise-and-reduce payloads, two whole-block stores; each output block is
  therefore the canonical array of ONE covering store. The launch is the library's frame run for a region
  continued by host operations: it needs (i) what every output block holds after the body, (ii) the body's
  triple, (iii) that the later host operations allocate nothing and write none of the four pipelined arrays.
  Its conclusion names every pipelined array after the run and every other buffer as the host operations leave it.
-/
import proofs.«102154_j41790031790569_1_alg».proof.Proof.Gen.Kernel.Launch
import proofs.«102154_j41790031790569_1_alg».proof.Proof.Gen.Kernel.Skeleton
import proofs.«102154_j41790031790569_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main: the region, then the host operations -/

/-- No host operation precedes the region: it is entered at the launch contents. -/
abbrev V0 (c : Dev nD) : Valuation τ sig (Elt F) :=
  StableHlo.after (List.flatten ([] : List (List (HloOp τ sig (Elt F))))) (fun b => m (c, b))
abbrev V (c : Dev nD) (b : Ref sig .tc) : Buf (Elt F) ((c : Thread nD τ).loc b) := V0 m c (Proc.devRef .tc b)

/-- The host operations after the region, stretch by stretch: the per-sample extrema and bin width, the first
    clamp of bin indices, the first histogram and the in-range mask, the second clamp, the second histogram and
    the divergence. -/
abbrev tailOps : List (List (HloOp τ sig (Elt F))) := [hostOps1, hostOps1_1, hostOps1_2, hostOps1_3, hostOps1_4]

theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps trivial trivial main_chain

/-! ## The later host operations allocate nothing and leave the pipelined arrays alone -/

theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor
theorem fresh1_4 : (hostOps1_4 : List (HloOp τ sig (Elt F))).Forall fun op => op.fresh = ∅ := by
  simp only [List.Forall]; repeat' constructor

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop
  · exact (List.forall_iff_forall_mem.mp fresh1_4) op hop

/-- The four pipelined arrays: the two inputs and the two magnitude maps. -/
abbrev pipelined : List (Ref sig .tc) := [main_arg0, main_arg1, main_v0_0, main_v0_1]

theorem arrRef_mem (w : Fin 4) : Pipeline.arrRef spec0 w ∈ pipelined := by
  fin_cases w <;> simp [pipelined] <;> rfl

/-- Every operation of this stretch writes its own result buffer, which is none of the pipelined arrays. -/
theorem keeps1 : ∀ b ∈ pipelined, (hostOps1 : List (HloOp τ sig (Elt F))).Forall fun op => Proc.devRef (τ := τ) .tc b ∉ op.writes := by
  intro b hb
  simp only [pipelined, List.mem_cons, List.mem_nil_iff, or_false] at hb
  rcases hb with rfl | rfl | rfl | rfl
  all_goals
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)

/-- Every operation of this stretch writes its own result buffer, which is none of the pipelined arrays. -/
theorem keeps1_1 : ∀ b ∈ pipelined, (hostOps1_1 : List (HloOp τ sig (Elt F))).Forall fun op => Proc.devRef (τ := τ) .tc b ∉ op.writes := by
  intro b hb
  simp only [pipelined, List.mem_cons, List.mem_nil_iff, or_false] at hb
  rcases hb with rfl | rfl | rfl | rfl
  all_goals
    simp only [hostOps1_1, List.Forall, StableHlo.nullary_writes, StableHlo.unary_writes, StableHlo.binary_writes, StableHlo.ternary_writes, StableHlo.reshape_writes, Finset.mem_singleton]
    repeat' apply And.intro
    all_goals exact StableHlo.devRef_ne_of_ne (by decide)

/-- Every operation of this stretch writes its own result buffer, which is none of the pipelined arrays. -/
theorem keeps1_2 : ∀ b ∈ pipelined, (hostOps1_2 : List (HloOp τ sig (Elt F))).Forall fun op => Proc.devRef (τ := τ) .tc b ∉ op.writes := by
  intro b hb
  simp only [pipelined, List.mem_cons, List.mem_nil_iff, or_false] at hb
  rcases hb with rfl | rfl | rfl | rfl
  all_goals
    simp only [hostOps1_2, List.Forall, StableHlo.nullary_writes, StableHlo.unary_writes, StableHlo.binary_writes, StableHlo.ternary_writes, StableHlo.reshape_writes, Finset.mem_singleton]
    repeat' apply And.intro
    all_goals exact StableHlo.devRef_ne_of_ne (by decide)

/-- Every operation of this stretch writes its own result buffer, which is none of the pipelined arrays. -/
theorem keeps1_3 : ∀ b ∈ pipelined, (hostOps1_3 : List (HloOp τ sig (Elt F))).Forall fun op => Proc.devRef (τ := τ) .tc b ∉ op.writes := by
  intro b hb
  simp only [pipelined, List.mem_cons, List.mem_nil_iff, or_false] at hb
  rcases hb with rfl | rfl | rfl | rfl
  all_goals
    simp only [hostOps1_3, List.Forall, StableHlo.nullary_writes, StableHlo.unary_writes, StableHlo.binary_writes, StableHlo.ternary_writes, StableHlo.reshape_writes, Finset.mem_singleton]
    repeat' apply And.intro
    all_goals exact StableHlo.devRef_ne_of_ne (by decide)

/-- Every operation of this stretch writes its own result buffer, which is none of the pipelined arrays. -/
theorem keeps1_4 : ∀ b ∈ pipelined, (hostOps1_4 : List (HloOp τ sig (Elt F))).Forall fun op => Proc.devRef (τ := τ) .tc b ∉ op.writes := by
  intro b hb
  simp only [pipelined, List.mem_cons, List.mem_nil_iff, or_false] at hb
  rcases hb with rfl | rfl | rfl | rfl
  all_goals
    simp only [hostOps1_4, List.Forall, StableHlo.nullary_writes, StableHlo.unary_writes, StableHlo.binary_writes, StableHlo.ternary_writes, StableHlo.reshape_writes, Finset.mem_singleton]
    repeat' apply And.intro
    all_goals exact StableHlo.devRef_ne_of_ne (by decide)

theorem sfx_keeps : ∀ ops ∈ (tailOps : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl | rfl | rfl | rfl
  · exact (List.forall_iff_forall_mem.mp (keeps1 _ (arrRef_mem w))) op hop
  · exact (List.forall_iff_forall_mem.mp (keeps1_1 _ (arrRef_mem w))) op hop
  · exact (List.forall_iff_forall_mem.mp (keeps1_2 _ (arrRef_mem w))) op hop
  · exact (List.forall_iff_forall_mem.mp (keeps1_3 _ (arrRef_mem w))) op hop
  · exact (List.forall_iff_forall_mem.mp (keeps1_4 _ (arrRef_mem w))) op hop

/-- The region finds each input array as launched. -/
theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point (every point fetches it; the body only reads it). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in each output block -/

/-- The whole input block and the whole output block, as rectangles. -/
abbrev rin : Rect S2x4x512x512 := Rect.unit (s := S2x4x512x512) ![0, 0, 0, 0] S2x4x512x512.size inb_S2x4x512x512_S2x4x512x512_0_0_0_0
abbrev rout : Rect S2x512x512 := Rect.unit (s := S2x512x512) ![0, 0, 0] S2x512x512.size inb_S2x512x512_S2x512x512_0_0_0

/-- The first output block after the body: one store of the whole block, of the first input block's clamped magnitudes. -/
def out0_2 (x0 : Vec F S2x4x512x512 .f32) : Vec F S2x512x512 .f32 :=
  View.canon [⟨rout, k0_pay1 (View.ld x0 rin)⟩]
/-- The second output block after the body, likewise of the second input block. -/
def out0_3 (x1 : Vec F S2x4x512x512 .f32) : Vec F S2x512x512 .f32 :=
  View.canon [⟨rout, k0_pay2 (View.ld x1 rin)⟩]

/-- The one store covers the block. -/
theorem cover_out (p0 : Vec F S2x512x512 .f32) (y : S2x512x512.Idx) :
    ∃ pc ∈ ([⟨rout, p0⟩] : List (View.Piece (Elt F) S2x512x512 .f32)), y ∈ pc.1.set :=
  View.cover_of_tiled [⟨rout, p0⟩] S2x512x512.size (by rfl) y

/-! ## The body's triple -/

set_option maxHeartbeats 2000000 in
/-- The body, on whole staging buffers — the inputs' at `x0`, `x1`, the outputs' at anything — leaves the inputs' as
    they were and the outputs' at the magnitudes of `x0` and of `x1`. -/
theorem sound_kernel (c : Dev nD) (E : Set ℕ) (i : grid0.Coords)
    (arg1 : Memref sig .tc .vmem S2x4x512x512 .f32) (harg1 : arg1.IsWhole) (arg2 : Memref sig .tc .vmem S2x4x512x512 .f32) (harg2 : arg2.IsWhole)
    (arg3 : Memref sig .tc .vmem S2x512x512 .f32) (harg3 : arg3.IsWhole) (arg4 : Memref sig .tc .vmem S2x512x512 .f32) (harg4 : arg4.IsWhole)
    (x0 x1 : Vec F S2x4x512x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x1)) -∗ K ⟨⟩))
      ⊢ wp frame (wpE (defs₀ (F := F)) Variants.none c none) E (cc0__magnitude_kernel i arg1 harg1 arg2 harg2 arg3 harg3 arg4 harg4) K := by
  simp only [cc0__magnitude_kernel_eq_skeleton]; unfold cc0__magnitude_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_out _)
  · iexists _; isplitr
    swap; · iexact H3
    ipureintro
    exact View.read_writes_eq_canon _ _ _ (cover_out _)

/-! ## The proof data -/

/-- On core `c`: the arrays as the region finds them; after the body at point `t` each input's buffer at its block and
    each output's at the magnitudes of the matching input block; the invariant is the library's for a body that
    keeps nothing; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t)
    | ⟨3, _⟩ => out0_3 (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) := by dsimp only [dats]
theorem after0_3 (c : Dev nD) (t : Fin cfg0.N) : (dats m 0 c).after 3 t = out0_3 (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters, every weakly fair execution of @main terminates without a fault; the four
    pipelined arrays end at what the write-backs of the proof data leave, every other buffer as the host
    operations after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The input arrays end as launched: an input window's array is never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.Kernel.Frame

end
-- ==== Proof.KernelIdealFrame.lean ====
/-
  The run of `KernelIdeal`'s @main, at any float instance: the pipelined region that computes, block by block, the two
  clamped channel-magnitude maps, followed by the host operations that bin them into histograms and compare
  the histograms.

  The region's grid has 32 points; point `t` holds images `2t` and `2t+1` of each input (a block of shape
  2×4×512×512) and stores, for each, the 2×512×512 block of per-pixel values max(√(Σ_c x²), 1e-6). The body is
  two whole-block loads, two pointwise-and-reduce payloads, two whole-block stores; each output block is
  therefore the canonical array of ONE covering store. The launch is the library's frame run for a region
  continued by host operations: it needs (i) what every output block holds after the body, (ii) the body's
  triple, (iii) that the later host operations allocate nothing and write none of the four pipelined arrays.
  Its conclusion names every pipelined array after the run and every other buffer as the host operations leave it.
-/
import proofs.«102154_j41790031790569_1_alg».proof.Proof.Gen.KernelIdeal.Launch
import proofs.«102154_j41790031790569_1_alg».proof.Proof.Gen.KernelIdeal.Skeleton
import proofs.«102154_j41790031790569_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main: the region, then the host operations -/

/-- No host operation precedes the region: it is entered at the launch contents. -/
abbrev V0 (c : Dev nD) : Valuation τ sig (Elt F) :=
  StableHlo.after (List.flatten ([] : List (List (HloOp τ sig (Elt F))))) (fun b => m (c, b))
abbrev V (c : Dev nD) (b : Ref sig .tc) : Buf (Elt F) ((c : Thread nD τ).loc b) := V0 m c (Proc.devRef .tc b)

/-- The host operations after the region, stretch by stretch: the per-sample extrema and bin width, the first
    clamp of bin indices, the first histogram and the in-range mask, the second clamp, the second histogram and
    the divergence. -/
abbrev tailOps : List (List (HloOp τ sig (Elt F))) := [hostOps1, hostOps1_1, hostOps1_2, hostOps1_3, hostOps1_4]

theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps trivial trivial main_chain

/-! ## The later host operations allocate nothing and leave the pipelined arrays alone -/

theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor
theorem fresh1_4 : (hostOps1_4 : List (HloOp τ sig (Elt F))).Forall fun op => op.fresh = ∅ := by
  simp only [List.Forall]; repeat' constructor

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop
  · exact (List.forall_iff_forall_mem.mp fresh1_4) op hop

/-- The four pipelined arrays: the two inputs and the two magnitude maps. -/
abbrev pipelined : List (Ref sig .tc) := [main_arg0, main_arg1, main_v0_0, main_v0_1]

theorem arrRef_mem (w : Fin 4) : Pipeline.arrRef spec0 w ∈ pipelined := by
  fin_cases w <;> simp [pipelined] <;> rfl

/-- Every operation of this stretch writes its own result buffer, which is none of the pipelined arrays. -/
theorem keeps1 : ∀ b ∈ pipelined, (hostOps1 : List (HloOp τ sig (Elt F))).Forall fun op => Proc.devRef (τ := τ) .tc b ∉ op.writes := by
  intro b hb
  simp only [pipelined, List.mem_cons, List.mem_nil_iff, or_false] at hb
  rcases hb with rfl | rfl | rfl | rfl
  all_goals
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)

/-- Every operation of this stretch writes its own result buffer, which is none of the pipelined arrays. -/
theorem keeps1_1 : ∀ b ∈ pipelined, (hostOps1_1 : List (HloOp τ sig (Elt F))).Forall fun op => Proc.devRef (τ := τ) .tc b ∉ op.writes := by
  intro b hb
  simp only [pipelined, List.mem_cons, List.mem_nil_iff, or_false] at hb
  rcases hb with rfl | rfl | rfl | rfl
  all_goals
    simp only [hostOps1_1, List.Forall, StableHlo.nullary_writes, StableHlo.unary_writes, StableHlo.binary_writes, StableHlo.ternary_writes, StableHlo.reshape_writes, Finset.mem_singleton]
    repeat' apply And.intro
    all_goals exact StableHlo.devRef_ne_of_ne (by decide)

/-- Every operation of this stretch writes its own result buffer, which is none of the pipelined arrays. -/
theorem keeps1_2 : ∀ b ∈ pipelined, (hostOps1_2 : List (HloOp τ sig (Elt F))).Forall fun op => Proc.devRef (τ := τ) .tc b ∉ op.writes := by
  intro b hb
  simp only [pipelined, List.mem_cons, List.mem_nil_iff, or_false] at hb
  rcases hb with rfl | rfl | rfl | rfl
  all_goals
    simp only [hostOps1_2, List.Forall, StableHlo.nullary_writes, StableHlo.unary_writes, StableHlo.binary_writes, StableHlo.ternary_writes, StableHlo.reshape_writes, Finset.mem_singleton]
    repeat' apply And.intro
    all_goals exact StableHlo.devRef_ne_of_ne (by decide)

/-- Every operation of this stretch writes its own result buffer, which is none of the pipelined arrays. -/
theorem keeps1_3 : ∀ b ∈ pipelined, (hostOps1_3 : List (HloOp τ sig (Elt F))).Forall fun op => Proc.devRef (τ := τ) .tc b ∉ op.writes := by
  intro b hb
  simp only [pipelined, List.mem_cons, List.mem_nil_iff, or_false] at hb
  rcases hb with rfl | rfl | rfl | rfl
  all_goals
    simp only [hostOps1_3, List.Forall, StableHlo.nullary_writes, StableHlo.unary_writes, StableHlo.binary_writes, StableHlo.ternary_writes, StableHlo.reshape_writes, Finset.mem_singleton]
    repeat' apply And.intro
    all_goals exact StableHlo.devRef_ne_of_ne (by decide)

/-- Every operation of this stretch writes its own result buffer, which is none of the pipelined arrays. -/
theorem keeps1_4 : ∀ b ∈ pipelined, (hostOps1_4 : List (HloOp τ sig (Elt F))).Forall fun op => Proc.devRef (τ := τ) .tc b ∉ op.writes := by
  intro b hb
  simp only [pipelined, List.mem_cons, List.mem_nil_iff, or_false] at hb
  rcases hb with rfl | rfl | rfl | rfl
  all_goals
    simp only [hostOps1_4, List.Forall, StableHlo.nullary_writes, StableHlo.unary_writes, StableHlo.binary_writes, StableHlo.ternary_writes, StableHlo.reshape_writes, Finset.mem_singleton]
    repeat' apply And.intro
    all_goals exact StableHlo.devRef_ne_of_ne (by decide)

theorem sfx_keeps : ∀ ops ∈ (tailOps : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl | rfl | rfl | rfl
  · exact (List.forall_iff_forall_mem.mp (keeps1 _ (arrRef_mem w))) op hop
  · exact (List.forall_iff_forall_mem.mp (keeps1_1 _ (arrRef_mem w))) op hop
  · exact (List.forall_iff_forall_mem.mp (keeps1_2 _ (arrRef_mem w))) op hop
  · exact (List.forall_iff_forall_mem.mp (keeps1_3 _ (arrRef_mem w))) op hop
  · exact (List.forall_iff_forall_mem.mp (keeps1_4 _ (arrRef_mem w))) op hop

/-- The region finds each input array as launched. -/
theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point (every point fetches it; the body only reads it). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in each output block -/

/-- The whole input block and the whole output block, as rectangles. -/
abbrev rin : Rect S2x4x512x512 := Rect.unit (s := S2x4x512x512) ![0, 0, 0, 0] S2x4x512x512.size inb_S2x4x512x512_S2x4x512x512_0_0_0_0
abbrev rout : Rect S2x512x512 := Rect.unit (s := S2x512x512) ![0, 0, 0] S2x512x512.size inb_S2x512x512_S2x512x512_0_0_0

/-- The first output block after the body: one store of the whole block, of the first input block's clamped magnitudes. -/
def out0_2 (x0 : Vec F S2x4x512x512 .f32) : Vec F S2x512x512 .f32 :=
  View.canon [⟨rout, k0_pay1 (View.ld x0 rin)⟩]
/-- The second output block after the body, likewise of the second input block. -/
def out0_3 (x1 : Vec F S2x4x512x512 .f32) : Vec F S2x512x512 .f32 :=
  View.canon [⟨rout, k0_pay2 (View.ld x1 rin)⟩]

/-- The one store covers the block. -/
theorem cover_out (p0 : Vec F S2x512x512 .f32) (y : S2x512x512.Idx) :
    ∃ pc ∈ ([⟨rout, p0⟩] : List (View.Piece (Elt F) S2x512x512 .f32)), y ∈ pc.1.set :=
  View.cover_of_tiled [⟨rout, p0⟩] S2x512x512.size (by rfl) y

/-! ## The body's triple -/

set_option maxHeartbeats 2000000 in
/-- The body, on whole staging buffers — the inputs' at `x0`, `x1`, the outputs' at anything — leaves the inputs' as
    they were and the outputs' at the magnitudes of `x0` and of `x1`. -/
theorem sound_kernel (c : Dev nD) (E : Set ℕ) (i : grid0.Coords)
    (arg1 : Memref sig .tc .vmem S2x4x512x512 .f32) (harg1 : arg1.IsWhole) (arg2 : Memref sig .tc .vmem S2x4x512x512 .f32) (harg2 : arg2.IsWhole)
    (arg3 : Memref sig .tc .vmem S2x512x512 .f32) (harg3 : arg3.IsWhole) (arg4 : Memref sig .tc .vmem S2x512x512 .f32) (harg4 : arg4.IsWhole)
    (x0 x1 : Vec F S2x4x512x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x1)) -∗ K ⟨⟩))
      ⊢ wp frame (wpE (defs₀ (F := F)) Variants.none c none) E (cc0__magnitude_kernel i arg1 harg1 arg2 harg2 arg3 harg3 arg4 harg4) K := by
  simp only [cc0__magnitude_kernel_eq_skeleton]; unfold cc0__magnitude_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_out _)
  · iexists _; isplitr
    swap; · iexact H3
    ipureintro
    exact View.read_writes_eq_canon _ _ _ (cover_out _)

/-! ## The proof data -/

/-- On core `c`: the arrays as the region finds them; after the body at point `t` each input's buffer at its block and
    each output's at the magnitudes of the matching input block; the invariant is the library's for a body that
    keeps nothing; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t)
    | ⟨3, _⟩ => out0_3 (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) := by dsimp only [dats]
theorem after0_3 (c : Dev nD) (t : Fin cfg0.N) : (dats m 0 c).after 3 t = out0_3 (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters, every weakly fair execution of @main terminates without a fault; the four
    pipelined arrays end at what the write-backs of the proof data leave, every other buffer as the host
    operations after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The input arrays end as launched: an input window's array is never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.KernelIdeal.Frame

end
-- ==== Proof.MagSpec.lean ====
/-
  The specification both programs meet: the clamped channel magnitude.

  For an array `a` of shape 64×4×512×512 (image, channel, row, column) the magnitude map has shape 64×512×512 and at
  (image, row, column) holds  max(√(Σ_c a[image, c, row, column]²), ε)  with ε the f32 nearest 1e-6. On the extended
  reals the sum of four squares is an ordinary sum (addition there is commutative and associative, so the order the
  four terms are added in does not matter), `√` is the ideal square root, and `max` is the order's.
-/
import Idealize.ShloMosaic.PureOps.Ideal
import Idealize.ShloMosaic.PureOps.Ideal.Laws

noncomputable section

namespace Cert.MagSpec

open Idealize.ShloMosaic

/-- The shape of an input and of a magnitude map. -/
abbrev SIn : Shape := ⟨4, ![64, 4, 512, 512]⟩
abbrev SOut : Shape := ⟨3, ![64, 512, 512]⟩

/-- The clamp's lower bound, as the f32 word both programs spell. -/
abbrev eps : EReal := Ideal.ofBits .f32 0x358637BD#32

/-- The clamped magnitude of four channel values. -/
def mag (v : Fin 4 → EReal) : EReal := max (Ideal.sqrt (∑ k : Fin 4, v k * v k)) eps

/-- The input index of channel `k` at the pixel `i`. -/
abbrev chan (i : SOut.Idx) (k : Fin 4) : SIn.Idx := fun a => match a with
  | ⟨0, _⟩ => ⟨(i 0).val, (i 0).isLt⟩
  | ⟨1, _⟩ => ⟨k.val, k.isLt⟩
  | ⟨2, _⟩ => ⟨(i 1).val, (i 1).isLt⟩
  | ⟨3, _⟩ => ⟨(i 2).val, (i 2).isLt⟩

/-- The magnitude map of a whole array. -/
def magArr (a : SIn.Idx → EReal) : SOut.Idx → EReal := fun i => mag fun k => a (chan i k)

end Cert.MagSpec

end
-- ==== Proof.KernelIdealValue.lean ====
/-
  What the idealized kernel's two output arrays hold after the run, on the extended reals: each is the clamped
  channel-magnitude map (MagSpec) of the matching input array.

  Point `t` of the grid writes back the block of images `2t`, `2t+1`, and that block is the body's payload of the
  input block of the same two images; the 32 blocks tile the array, so the array is one function of the input.
-/
import proofs.«102154_j41790031790569_1_alg».proof.Proof.KernelIdealFrame
import proofs.«102154_j41790031790569_1_alg».proof.Proof.MagSpec
import Idealize.ShloMosaic.Lib.Pipeline.Value
import Idealize.ShloMosaic.PureOps.Ideal.Laws

set_option maxRecDepth 16384

noncomputable section

namespace Cert.KernelIdeal.MagValue

open Cert.KernelIdeal Cert.KernelIdeal.Gen Cert.KernelIdeal.Frame Cert.MagSpec
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps over the grid: at point `t` an input block is block (t, 0, 0, 0) and an output block is
    block (t, 0, 0). -/
theorem idx_facts2 : ∀ t : Fin cfg0.N, win0_0.index t (0 : Fin 4) = t.val ∧ win0_0.index t (1 : Fin 4) = 0
    ∧ win0_0.index t (2 : Fin 4) = 0 ∧ win0_0.index t (3 : Fin 4) = 0
    ∧ win0_2.index t (0 : Fin 3) = t.val ∧ win0_2.index t (1 : Fin 3) = 0 ∧ win0_2.index t (2 : Fin 3) = 0 :=
  (by decide +kernel : ∀ t : Fin grid0.N, _)
theorem idx_facts3 : ∀ t : Fin cfg0.N, win0_1.index t (0 : Fin 4) = t.val ∧ win0_1.index t (1 : Fin 4) = 0
    ∧ win0_1.index t (2 : Fin 4) = 0 ∧ win0_1.index t (3 : Fin 4) = 0
    ∧ win0_3.index t (0 : Fin 3) = t.val ∧ win0_3.index t (1 : Fin 3) = 0 ∧ win0_3.index t (2 : Fin 3) = 0 :=
  (by decide +kernel : ∀ t : Fin grid0.N, _)

/-! ## Output window 2: the magnitude map of `main_arg0` -/

/-- At one pixel of a block the payload is the clamped magnitude of the four channel values there: the product is
    pointwise, the reduction over the channel axis is the sum of its four terms, the square root and the clamp are pointwise. -/
theorem pay2_apply (x : FVec Ideal S2x4x512x512 .f32) (j : S2x512x512.Idx) :
    k0_pay1 (F := Ideal) x j = mag (fun k => x (reduces_S2x4x512x512_S2x512x512.lift j k)) := by
  unfold k0_pay1 mag
  show max (Ideal.sqrt (multiReduction (F := Ideal) .add [1] S2x512x512 (mulf x x) 0x00000000#32 reduces_S2x4x512x512_S2x512x512 (.inl rfl) rfl j)) eps = _
  refine congrArg (fun s => max (Ideal.sqrt s) eps) ?_
  exact Ideal.multiReduction_add_single (mulf x x) 0x00000000#32 reduces_S2x4x512x512_S2x512x512 (.inl rfl) rfl j

/-- A block of the output at point `t` is the magnitude map of the whole input read at the block's pixels: the input
    block at `t` holds images `2t`, `2t+1` in full, the output block the same two images. -/
theorem block2 (a : SIn.Idx → EReal) (t : Fin cfg0.N) (x : FVec Ideal S2x4x512x512 .f32)
    (hx : ∀ y, x y = a (((cfg0.win 0).blk t).view.emb y)) (j : S2x512x512.Idx) :
    k0_pay1 (F := Ideal) x j = magArr a (((cfg0.win 2).blk t).view.emb j) := by
  rw [pay2_apply]
  unfold magArr
  refine congrArg mag (funext fun k => ?_)
  rw [hx]
  refine congrArg a (funext fun b => Fin.ext ?_)
  obtain ⟨e0, e1, e2, e3, f0, f1, f2⟩ := idx_facts2 t
  have h0 : (j 0).val < 2 := (j 0).isLt
  have h1 : (j 1).val < 512 := (j 1).isLt
  have h2 : (j 2).val < 512 := (j 2).isLt
  have hk : k.val < 4 := k.isLt
  match b with
  | ⟨0, _⟩ => show win0_0.index t (0 : Fin 4) * 2 + 1 * (j 0).val = win0_2.index t (0 : Fin 3) * 2 + 1 * (j 0).val; omega
  | ⟨1, _⟩ => show win0_0.index t (1 : Fin 4) * 4 + 1 * k.val = k.val; omega
  | ⟨2, _⟩ => show win0_0.index t (2 : Fin 4) * 512 + 1 * (j 1).val = win0_2.index t (1 : Fin 3) * 512 + 1 * (j 1).val; omega
  | ⟨3, _⟩ => show win0_0.index t (3 : Fin 4) * 512 + 1 * (j 2).val = win0_2.index t (2 : Fin 3) * 512 + 1 * (j 2).val; omega

/-- What point `t` writes back is block `t` of the magnitude map of the input array. -/
theorem flushed2_eq (c : Dev nD) (t : Fin cfg0.N) :
    (dats m 0 c).flushed 2 t = ((cfg0.win 2).blk t).view.read (Elt Ideal) (magArr (V m c main_arg0)) := by
  show (cfg0.win 2).cut (grid0.coords t) ((dats m 0 c).after 2 t) = _
  rw [after0_2]
  unfold out0_2
  rw [View.canon_unit_zero hz3]
  simp only [View.ld_unit_zero (S := S2x4x512x512) hz4]
  funext j
  exact block2 (V m c main_arg0) t (iblk m c 0 t) (fun _ => rfl) j

/-- A pixel is in point `t`'s block iff each coordinate is in the block's range on its axis. -/
theorem mem_blk2 (t : Fin cfg0.N) (i : S64x512x512.Idx) :
    i ∈ ((cfg0.win 2).blk t).view.set ↔ ∀ a : Fin 3, win0_2.index t a * S2x512x512.size a ≤ (i a).val ∧ (i a).val < win0_2.index t a * S2x512x512.size a + S2x512x512.size a := by
  show i ∈ ((View.whole main_v0_0).slice (win0_2.rect t)).set ↔ _
  rw [View.set_slice_whole, Rect.mem_set_unit]
  exact Iff.rfl

/-- Every pixel is in some point's block: image `n` is written back at point `n / 2`. -/
theorem cover2 (i : S64x512x512.Idx) :
    ∃ t : Fin cfg0.N, (cfg0.win 2).flush t = true ∧ i ∈ ((cfg0.win 2).blk t).view.set := by
  have hi0 : (i 0).val < 64 := (i 0).isLt
  have hi1 : (i 1).val < 512 := (i 1).isLt
  have hi2 : (i 2).val < 512 := (i 2).isLt
  have hN : cfg0.N = 32 := N_0
  refine ⟨⟨(i 0).val / 2, by omega⟩, flush0_2 _, ?_⟩
  rw [mem_blk2]
  obtain ⟨e0, e1, e2, e3, f0, f1, f2⟩ := idx_facts2 ⟨(i 0).val / 2, by omega⟩
  intro a
  match a with
  | ⟨0, _⟩ => show win0_2.index _ (0 : Fin 3) * 2 ≤ (i 0).val ∧ (i 0).val < win0_2.index _ (0 : Fin 3) * 2 + 2; simp only [f0]; omega
  | ⟨1, _⟩ => show win0_2.index _ (1 : Fin 3) * 512 ≤ (i 1).val ∧ (i 1).val < win0_2.index _ (1 : Fin 3) * 512 + 512; omega
  | ⟨2, _⟩ => show win0_2.index _ (2 : Fin 3) * 512 ≤ (i 2).val ∧ (i 2).val < win0_2.index _ (2 : Fin 3) * 512 + 512; omega

/-- After the run the array is the magnitude map of `main_arg0` as launched. -/
theorem final2 (c : Dev nD) : (dats m 0 c).arrAt 2 cfg0.N = magArr (m ((c : Thread nD τ).loc main_arg0)) :=
  (dats m 0 c).arrAt_eq_of_cover 2 (magArr (V m c main_arg0)) (fun t _ => flushed2_eq m c t) cover2

/-! ## Output window 3: the magnitude map of `main_arg1` -/

/-- At one pixel of a block the payload is the clamped magnitude of the four channel values there: the product is
    pointwise, the reduction over the channel axis is the sum of its four terms, the square root and the clamp are pointwise. -/
theorem pay3_apply (x : FVec Ideal S2x4x512x512 .f32) (j : S2x512x512.Idx) :
    k0_pay2 (F := Ideal) x j = mag (fun k => x (reduces_S2x4x512x512_S2x512x512.lift j k)) := by
  unfold k0_pay2 mag
  show max (Ideal.sqrt (multiReduction (F := Ideal) .add [1] S2x512x512 (mulf x x) 0x00000000#32 reduces_S2x4x512x512_S2x512x512 (.inl rfl) rfl j)) eps = _
  refine congrArg (fun s => max (Ideal.sqrt s) eps) ?_
  exact Ideal.multiReduction_add_single (mulf x x) 0x00000000#32 reduces_S2x4x512x512_S2x512x512 (.inl rfl) rfl j

/-- A block of the output at point `t` is the magnitude map of the whole input read at the block's pixels: the input
    block at `t` holds images `2t`, `2t+1` in full, the output block the same two images. -/
theorem block3 (a : SIn.Idx → EReal) (t : Fin cfg0.N) (x : FVec Ideal S2x4x512x512 .f32)
    (hx : ∀ y, x y = a (((cfg0.win 1).blk t).view.emb y)) (j : S2x512x512.Idx) :
    k0_pay2 (F := Ideal) x j = magArr a (((cfg0.win 3).blk t).view.emb j) := by
  rw [pay3_apply]
  unfold magArr
  refine congrArg mag (funext fun k => ?_)
  rw [hx]
  refine congrArg a (funext fun b => Fin.ext ?_)
  obtain ⟨e0, e1, e2, e3, f0, f1, f2⟩ := idx_facts3 t
  have h0 : (j 0).val < 2 := (j 0).isLt
  have h1 : (j 1).val < 512 := (j 1).isLt
  have h2 : (j 2).val < 512 := (j 2).isLt
  have hk : k.val < 4 := k.isLt
  match b with
  | ⟨0, _⟩ => show win0_1.index t (0 : Fin 4) * 2 + 1 * (j 0).val = win0_3.index t (0 : Fin 3) * 2 + 1 * (j 0).val; omega
  | ⟨1, _⟩ => show win0_1.index t (1 : Fin 4) * 4 + 1 * k.val = k.val; omega
  | ⟨2, _⟩ => show win0_1.index t (2 : Fin 4) * 512 + 1 * (j 1).val = win0_3.index t (1 : Fin 3) * 512 + 1 * (j 1).val; omega
  | ⟨3, _⟩ => show win0_1.index t (3 : Fin 4) * 512 + 1 * (j 2).val = win0_3.index t (2 : Fin 3) * 512 + 1 * (j 2).val; omega

/-- What point `t` writes back is block `t` of the magnitude map of the input array. -/
theorem flushed3_eq (c : Dev nD) (t : Fin cfg0.N) :
    (dats m 0 c).flushed 3 t = ((cfg0.win 3).blk t).view.read (Elt Ideal) (magArr (V m c main_arg1)) := by
  show (cfg0.win 3).cut (grid0.coords t) ((dats m 0 c).after 3 t) = _
  rw [after0_3]
  unfold out0_3
  rw [View.canon_unit_zero hz3]
  simp only [View.ld_unit_zero (S := S2x4x512x512) hz4]
  funext j
  exact block3 (V m c main_arg1) t (iblk m c 1 t) (fun _ => rfl) j

/-- A pixel is in point `t`'s block iff each coordinate is in the block's range on its axis. -/
theorem mem_blk3 (t : Fin cfg0.N) (i : S64x512x512.Idx) :
    i ∈ ((cfg0.win 3).blk t).view.set ↔ ∀ a : Fin 3, win0_3.index t a * S2x512x512.size a ≤ (i a).val ∧ (i a).val < win0_3.index t a * S2x512x512.size a + S2x512x512.size a := by
  show i ∈ ((View.whole main_v0_1).slice (win0_3.rect t)).set ↔ _
  rw [View.set_slice_whole, Rect.mem_set_unit]
  exact Iff.rfl

/-- Every pixel is in some point's block: image `n` is written back at point `n / 2`. -/
theorem cover3 (i : S64x512x512.Idx) :
    ∃ t : Fin cfg0.N, (cfg0.win 3).flush t = true ∧ i ∈ ((cfg0.win 3).blk t).view.set := by
  have hi0 : (i 0).val < 64 := (i 0).isLt
  have hi1 : (i 1).val < 512 := (i 1).isLt
  have hi2 : (i 2).val < 512 := (i 2).isLt
  have hN : cfg0.N = 32 := N_0
  refine ⟨⟨(i 0).val / 2, by omega⟩, flush0_3 _, ?_⟩
  rw [mem_blk3]
  obtain ⟨e0, e1, e2, e3, f0, f1, f2⟩ := idx_facts3 ⟨(i 0).val / 2, by omega⟩
  intro a
  match a with
  | ⟨0, _⟩ => show win0_3.index _ (0 : Fin 3) * 2 ≤ (i 0).val ∧ (i 0).val < win0_3.index _ (0 : Fin 3) * 2 + 2; simp only [f0]; omega
  | ⟨1, _⟩ => show win0_3.index _ (1 : Fin 3) * 512 ≤ (i 1).val ∧ (i 1).val < win0_3.index _ (1 : Fin 3) * 512 + 512; omega
  | ⟨2, _⟩ => show win0_3.index _ (2 : Fin 3) * 512 ≤ (i 2).val ∧ (i 2).val < win0_3.index _ (2 : Fin 3) * 512 + 512; omega

/-- After the run the array is the magnitude map of `main_arg1` as launched. -/
theorem final3 (c : Dev nD) : (dats m 0 c).arrAt 3 cfg0.N = magArr (m ((c : Thread nD τ).loc main_arg1)) :=
  (dats m 0 c).arrAt_eq_of_cover 3 (magArr (V m c main_arg1)) (fun t _ => flushed3_eq m c t) cover3

end Cert.KernelIdeal.MagValue

end
-- ==== Proof.RefMag.lean ====
/-
  The idealized reference's two magnitude maps are the specification's (MagSpec): at each pixel the reference adds
  the four squared channel values to its initial value 0, takes the ideal square root, and takes the maximum with
  the clamp's bound — the bound on the left, where the kernel has it on the right; `max` is commutative.
-/
import proofs.«102154_j41790031790569_1_alg».proof.Proof.Gen.ReferenceIdeal.Read
import proofs.«102154_j41790031790569_1_alg».proof.Proof.MagSpec

noncomputable section

namespace Cert.ReferenceIdeal.RefMag

open Cert.ReferenceIdeal Cert.ReferenceIdeal.Gen Cert.ReferenceIdeal.Read Cert.MagSpec
open Idealize.ShloMosaic Idealize.ShloMosaic.TcCoe Idealize.SL.Sem

/-- The reference's input index of channel `k` at pixel `i` (first input) is the specification's. -/
theorem idx0_eq (i : S64x512x512.Idx) (k : Fin 4) : idx_main_v1 i k = chan i k :=
  funext fun a => Fin.ext (by match a with | ⟨0, _⟩ => rfl | ⟨1, _⟩ => rfl | ⟨2, _⟩ => rfl | ⟨3, _⟩ => rfl)
/-- The same for the second input. -/
theorem idx1_eq (i : S64x512x512.Idx) (k : Fin 4) : idx_main_v6 i k = chan i k :=
  funext fun a => Fin.ext (by match a with | ⟨0, _⟩ => rfl | ⟨1, _⟩ => rfl | ⟨2, _⟩ => rfl | ⟨3, _⟩ => rfl)

/-- The reference's clamped magnitude of its first argument is the specification's magnitude map. -/
theorem mag0 (a : (⟨S64x4x512x512, .f32⟩ : BufTy).Contents (Elt Ideal)) : val_main_v3 (F := Ideal) a = magArr a := by
  funext i
  rw [val_main_v3_apply, val_main_v2_apply, val_main_v1_apply, val_main_call0_v1_apply, val_main_call0_v0_apply,
    val_main_cst_0_apply, val_main_cst_apply]
  simp only [val_main_v0_apply, Ideal.maximumf_def, Ideal.hostUnary_sqrt_def, Ideal.ofBits_def, Ideal.mulf_def,
    Ideal.ofBits_zero_f32, zero_add, idx0_eq]
  unfold magArr mag
  exact max_comm _ _

/-- The same of its second argument. -/
theorem mag1 (a : (⟨S64x4x512x512, .f32⟩ : BufTy).Contents (Elt Ideal)) : val_main_v8 (F := Ideal) a = magArr a := by
  funext i
  rw [val_main_v8_apply, val_main_v7_apply, val_main_v6_apply, val_main_call1_v1_apply, val_main_call1_v0_apply,
    val_main_cst_2_apply, val_main_cst_1_apply]
  simp only [val_main_v5_apply, Ideal.maximumf_def, Ideal.hostUnary_sqrt_def, Ideal.ofBits_def, Ideal.mulf_def,
    Ideal.ofBits_zero_f32, zero_add, idx1_eq]
  unfold magArr mag
  exact max_comm _ _

end Cert.ReferenceIdeal.RefMag

end
-- ==== Proof.KernelIdealTail.lean ====
/-
  The idealized kernel's result is the idealized reference's.

  After the region the kernel's @main runs the same host operations the reference runs after ITS two magnitude
  maps: per-sample minimum and maximum of the first map, the bin width, the two clamped bin-index arrays, the two
  histograms by scatter-add (the second under the in-range mask), their densities, the ε-smoothing, the
  normalisations and the divergence's mean. Those operations read, of everything the region left, only the two
  magnitude maps. The kernel's two maps are the specification's magnitude maps of the inputs (MagValue), and so are
  the reference's (RefMag); the two composed terms are then one term, operation by operation.
-/
import proofs.«102154_j41790031790569_1_alg».proof.Proof.KernelIdealValue
import proofs.«102154_j41790031790569_1_alg».proof.Proof.RefMag
import Idealize.ShloMosaic.Lib.StableHlo.Run

set_option maxRecDepth 16384

noncomputable section

namespace Cert.KernelIdeal.Tail

open Cert.KernelIdeal Cert.KernelIdeal.Gen Cert.KernelIdeal.Frame Cert.KernelIdeal.MagValue Cert.MagSpec
open Idealize.ShloMosaic Idealize.ShloMosaic.TcCoe Idealize.SL.Sem Idealize.ShloMosaic.StableHlo

variable (m : (ℓ : Loc nD τ sig) → Buf (Elt Ideal) ℓ)
variable (m' : (ℓ : Loc Cert.ReferenceIdeal.nD Cert.ReferenceIdeal.τ Cert.ReferenceIdeal.sig) → Buf (Elt Ideal) ℓ)

/-- What the region leaves in the first magnitude map's array, as the host operations find it: the reference's
    clamped magnitude of the first input. -/
theorem left2 (c : Dev nD) :
    Pipeline.withArrays spec0 c (V0 m c) (fun w => (dats m 0 c).arrAt w cfg0.N) (Proc.devRef .tc main_v0_0)
      = Cert.ReferenceIdeal.Read.val_main_v3 (F := Ideal) (m ((c : Thread nD τ).loc main_arg0)) :=
  (Pipeline.withArrays_arr spec0 launch0.win.arr_inj c _ _ 2).trans ((final2 m c).trans (Cert.ReferenceIdeal.RefMag.mag0 _).symm)

/-- And in the second's: the reference's clamped magnitude of the second input. -/
theorem left3 (c : Dev nD) :
    Pipeline.withArrays spec0 c (V0 m c) (fun w => (dats m 0 c).arrAt w cfg0.N) (Proc.devRef .tc main_v0_1)
      = Cert.ReferenceIdeal.Read.val_main_v8 (F := Ideal) (m ((c : Thread nD τ).loc main_arg1)) :=
  (Pipeline.withArrays_arr spec0 launch0.win.arr_inj c _ _ 3).trans ((final3 m c).trans (Cert.ReferenceIdeal.RefMag.mag1 _).symm)

set_option maxHeartbeats 200000000 in
/-- The scalar the kernel's host operations end with is the reference's result term, for memories agreeing on the inputs. -/
theorem result_eq (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1)) :
    Pipeline.afterTail₀ cfgs (dats m) 0 (V0 m) tailOps c main_v79 = Cert.ReferenceIdeal.Value.res_main_v86 (F := Ideal) m' c := by
  unfold Pipeline.afterTail₀
  show StableHlo.after (List.flatten tailOps) (Pipeline.withArrays spec0 c (V0 m c) (fun w => (dats m 0 c).arrAt w cfg0.N)) (Proc.devRef .tc main_v79) = _
  simp only [tailOps, hostOps1, hostOps1_1, hostOps1_2, hostOps1_3, hostOps1_4, List.flatten_cons, List.flatten_nil, List.append_nil,
    List.cons_append, List.nil_append]
  after_results_simp
  rw [left2 m c, left3 m c]
  unfold Cert.ReferenceIdeal.Value.res_main_v86
  rw [h0, h1]
  rfl

end Cert.KernelIdeal.Tail

end
-- ==== Proof.lean ====
/-
  The kernel computes, in one pipelined region, the two clamped channel-magnitude maps
      p = max(√(Σ_c y_pred²), ε),   t = max(√(Σ_c y_true²), ε)          (ε the f32 nearest 1e-6)
  of its 64×4×512×512 inputs, and then on the host the per-sample histogram densities of p and t over p's range
  (50 bins), their ε-smoothed normalisations and the mean Kullback–Leibler divergence between them. The reference
  computes the same two maps with host operations and then runs the same host operations on them.

  On the extended reals the two programs agree because
    · a block's payload at a pixel is the sum of the four squared channel values there, whatever order a reduction
      adds them in, followed by the ideal square root and a maximum with ε — and so is the reference's, with the
      maximum's operands swapped (`max` is commutative) and an initial 0 added to the sum;
    · the region's 32 blocks of two images each tile the 64 images, so each output array is the specification's map
      of the whole input;
    · everything after the maps is the same composed term of the two maps.
  No law used needs finiteness, so the precondition is never opened. The three frames: each kernel program by the
  library's frame run for a region followed by host operations; the reference by its run, a straight line of host
  operations. The idealization rewrote nothing, so `preserves` is `True`.
-/
import proofs.«102154_j41790031790569_1_alg».proof.Defs
import proofs.«102154_j41790031790569_1_alg».proof.Proof.Gen.Kernel
import proofs.«102154_j41790031790569_1_alg».proof.Proof.Gen.Kernel.Skeleton
import proofs.«102154_j41790031790569_1_alg».proof.Proof.Gen.Kernel.Launch
import proofs.«102154_j41790031790569_1_alg».proof.Proof.Gen.Kernel.Points
import proofs.«102154_j41790031790569_1_alg».proof.Proof.Gen.KernelIdeal
import proofs.«102154_j41790031790569_1_alg».proof.Proof.Gen.KernelIdeal.Skeleton
import proofs.«102154_j41790031790569_1_alg».proof.Proof.Gen.KernelIdeal.Launch
import proofs.«102154_j41790031790569_1_alg».proof.Proof.Gen.KernelIdeal.Points
import proofs.«102154_j41790031790569_1_alg».proof.Proof.Gen.ReferenceIdeal
import proofs.«102154_j41790031790569_1_alg».proof.Proof.Gen.ReferenceIdeal.Run
import proofs.«102154_j41790031790569_1_alg».proof.Proof.Gen.ReferenceIdeal.Read
import proofs.«102154_j41790031790569_1_alg».proof.Proof.Gen.Pre_finite_inputs
import proofs.«102154_j41790031790569_1_alg».proof.Proof.KernelFrame
import proofs.«102154_j41790031790569_1_alg».proof.Proof.KernelIdealFrame
import proofs.«102154_j41790031790569_1_alg».proof.Proof.KernelIdealTail
import Idealize.ShloMosaic.Adequacy
import Idealize.ShloMosaic.Init

noncomputable section

namespace Cert.Proof

open Idealize.ShloMosaic Idealize.ShloMosaic.TcCoe Idealize.SL.Sem

/-- The kernel as printed runs to the end, faults nowhere, and leaves its two inputs as launched. -/
theorem frame_k : Cert.frame_Kernel := fun m ρ _ => Cert.Kernel.Frame.frame m ρ

/-- So does its idealization. -/
theorem frame_ki : Cert.frame_KernelIdeal := fun m ρ _ => Cert.KernelIdeal.Frame.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the inputs both idealized programs end with the same scalar: the reference's composed
    term of the inputs, which the kernel's host operations reach from the region's two magnitude maps. -/
theorem algebraic : Cert.algebraic_KernelIdeal_ReferenceIdeal := by
  intro m ρ m' ρ' _ hagree
  refine ⟨fun c => Cert.ReferenceIdeal.Value.res_main_v86 (F := Ideal) m' c, ?_, Cert.ReferenceIdeal.Value.run (F := Ideal) m' ρ'⟩
  refine (θ_run Cert.KernelIdeal.defs _ _).mono (fun r h c => ⟨?_, ?_, ?_⟩) (Cert.KernelIdeal.Frame.run_main m ρ)
  · exact ((h c).2 Cert.KernelIdeal.main_v79 (Pipeline.mem_restRefs_of _ (by decide) (by decide))).trans
      (Cert.KernelIdeal.Tail.result_eq m m' c (hagree c).1 (hagree c).2)
  · exact ((h c).1 0).trans (((Cert.KernelIdeal.Frame.dats m 0 c).arrAt_in 0 rfl _).trans
      ((Cert.KernelIdeal.Frame.A_eq m c 0).trans (Cert.KernelIdeal.Frame.V_main_arg0 m c)))
  · exact ((h c).1 1).trans (((Cert.KernelIdeal.Frame.dats m 0 c).arrAt_in 1 rfl _).trans
      ((Cert.KernelIdeal.Frame.A_eq m c 1).trans (Cert.KernelIdeal.Frame.V_main_arg1 m c)))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
